-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x64, .f32⟩
  | .hbm, ⟨79, _⟩ => ⟨S3300000x1, .f32⟩
  | .hbm, ⟨80, _⟩ => ⟨S3300000x64, .f32⟩
  | .hbm, ⟨81, _⟩ => ⟨S3300000x64, .f32⟩
  | .hbm, ⟨82, _⟩ => ⟨S_, .f32⟩
  | .hbm, ⟨83, _⟩ => ⟨S100000x64, .f32⟩
  | .hbm, ⟨84, _⟩ => ⟨S3300000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x64, .f32⟩
  | 5 => ⟨S64, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x64, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x64, .f32⟩
  | 56 => ⟨S3300000x1, .f32⟩
  | 57 => ⟨S3300000x64, .f32⟩
  | 58 => ⟨S3300000x64, .f32⟩
  | 59 => ⟨S_, .f32⟩
  | 60 => ⟨S100000x64, .f32⟩
  | 61 => ⟨S3300000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000, .i32⟩
  | 70 => ⟨S1x3200000, .i32⟩
  | 71 => ⟨S3200000, .i32⟩
  | 72 => ⟨S3300000, .i32⟩
  | 73 => ⟨S1x3200000, .i32⟩
  | 74 => ⟨S3200000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S100000x64, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x64, .f32⟩
  | 119 => ⟨S3300000x1, .f32⟩
  | 120 => ⟨S3300000x64, .f32⟩
  | 121 => ⟨S3300000x64, .f32⟩
  | 122 => ⟨S_, .f32⟩
  | 123 => ⟨S100000x64, .f32⟩
  | 124 => ⟨S3300000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The idealized kernel program's run, with its result named.

  @main is eight segments: three stretches of host operations, the first matrix-product region, two stretches, the
  second region, and a last stretch. The contents of every buffer at each boundary are a fold through the segments
  (the frame module's `W0` … `W8`): a stretch applies its operations' pure functions, a region replaces its output
  array by what its write-backs leave and keeps every other buffer. Every weakly fair execution terminates, without a
  fault, with every unscoped buffer at the last boundary's contents `W8`; the frame reads the six arguments there, and
  here the result buffer is read there too.
-/
import proofs.«158356_j89850715832383_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the six argument arrays as launched. -/
theorem run_value : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Gen

end
-- ==== Proof.Spec.lean ====
/-
  The two-layer graph convolution both programs compute, as ONE function of the six argument arrays.

  With E = 3 200 000 edges and N = 100 000 nodes, the edge list `e : i32[2, E]` is extended by the N self-loops:
  `srcIds e` and `dstIds e` are rows 0 and 1 of `e` followed by 0, 1, …, N-1 (E + N entries each). The degree of a node
  is the number of extended edges that end in it, `dinv` its inverse square root (0 where the degree is not positive), and
  the weight of extended edge `k` is `dinv (src k) · dinv (dst k)` (`norm`). One layer maps node features `h : f32[N, 64]`
  (already multiplied by the layer's weight matrix) and a bias `b : f32[64]` to

      agg h b  =  (Σ over extended edges k with dst k = n of  h[src k, ·] · norm k)  +  b          at node n,

  written with the host's gather and scatter-add exactly as both printed programs write it. The network is
  `agg (relu (agg (x · W1) b1) · W2) b2`, where `·` on matrices is the plain matrix product (`mm1`, `mm2`: the host's
  dot_general contracting the one shared axis). Everything here is generic in the float instance; nothing is unfolded.
-/
import proofs.«158356_j89850715832383_1_alg».proof.Proof.Gen.ReferenceIdeal

noncomputable section

namespace Cert.Gcn

open Idealize.ShloMosaic Cert.ReferenceIdeal Cert.ReferenceIdeal.Gen

variable {F : FTy → Type} [FloatOps F]

/-- Source node of every extended edge: row 0 of the edge list, then the self-loops 0 … N-1. -/
def srcIds (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- Target node of every extended edge: row 1 of the edge list, then the self-loops 0 … N-1. -/
def dstIds (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A node id as jnp indexing reads it: a negative id counts from the end (id + N). -/
def wrapIds (s : (⟨S3300000, .i32⟩ : BufTy).Contents (Elt F)) : (⟨S3300000, .i32⟩ : BufTy).Contents (Elt F) :=
  select (cmpi .slt s (broadcastInDim S3300000 ![] bcast_S_S3300000 (constantI S_ 32 0#32))) (addi s (broadcastInDim S3300000 ![] bcast_S_S3300000 (constantI S_ 32 100000#32))) s

/-- The degree of every node: ones scatter-added at the targets of the extended edges. -/
def degree (d : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))

/-- Where a degree vector is positive. -/
def positive (g : (⟨S100000, .f32⟩ : BufTy).Contents (Elt F)) : (⟨S100000, .i1⟩ : BufTy).Contents (Elt F) :=
  cmpf (F := F) .ogt g (broadcastInDim S100000 ![] bcast_S_S100000 (constant S_ .f32 0x00000000#32))

/-- The inverse square root of every node's degree. -/
def rsqrtDeg (d : (⟨S3300000, .i32⟩ : BufTy).Contents (Elt F)) : (⟨S100000, .f32⟩ : BufTy).Contents (Elt F) :=
  Host.rsqrt (degree d)

/-- The scalar zero. -/
def zeroScalar : (⟨S_, .f32⟩ : BufTy).Contents (Elt F) := constant S_ .f32 0x00000000#32

/-- `r` where the mask `p` holds, the scalar `z` elsewhere. -/
def dinvOf (p : (⟨S100000, .i1⟩ : BufTy).Contents (Elt F)) (r : (⟨S100000, .f32⟩ : BufTy).Contents (Elt F))
    (z : (⟨S_, .f32⟩ : BufTy).Contents (Elt F)) : (⟨S100000, .f32⟩ : BufTy).Contents (Elt F) :=
  select p r (broadcastInDim S100000 ![] bcast_S_S100000 (id z))

/-- degree^(-1/2) where the degree is positive, 0 elsewhere. -/
def dinv (d : (⟨S3300000, .i32⟩ : BufTy).Contents (Elt F)) : (⟨S100000, .f32⟩ : BufTy).Contents (Elt F) :=
  dinvOf (positive (degree d)) (rsqrtDeg d) zeroScalar

/-- The weight of every extended edge from a per-node factor `dv`: the factor at its source times the factor at its target. -/
def normOf (s d : (⟨S3300000, .i32⟩ : BufTy).Contents (Elt F)) (dv : (⟨S100000, .f32⟩ : BufTy).Contents (Elt F)) :
    (⟨S3300000, .f32⟩ : BufTy).Contents (Elt F) :=
  mulf (Host.gather gather_S100000_S3300000x1_S3300000_n_0_n_n_0_1_1 dv (broadcastInDim S3300000x1 ![0] bcast_S3300000_S3300000x1_0 (wrapIds s))) (Host.gather gather_S100000_S3300000x1_S3300000_n_0_n_n_0_1_1 dv (broadcastInDim S3300000x1 ![0] bcast_S3300000_S3300000x1_0 (wrapIds d)))

/-- The weight of every extended edge: dinv at its source times dinv at its target. -/
def norm (s d : (⟨S3300000, .i32⟩ : BufTy).Contents (Elt F)) : (⟨S3300000, .f32⟩ : BufTy).Contents (Elt F) :=
  normOf s d (dinv d)

/-- One layer's aggregation: the rows of `h` at the sources, each scaled by its edge's weight, scatter-added at the
    targets; then the bias added to every row. -/
def agg (s d : (⟨S3300000, .i32⟩ : BufTy).Contents (Elt F)) (n : (⟨S3300000, .f32⟩ : BufTy).Contents (Elt F))
    (h : (⟨S100000x64, .f32⟩ : BufTy).Contents (Elt F)) (b : (⟨S64, .f32⟩ : BufTy).Contents (Elt F)) :
    (⟨S100000x64, .f32⟩ : BufTy).Contents (Elt F) :=
  addf (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 d) (mulf (Host.gather gather_S100000x64_S3300000x1_S3300000x64_1_0_n_n_0_1_164 h (broadcastInDim S3300000x1 ![0] bcast_S3300000_S3300000x1_0 (wrapIds s))) (broadcastInDim S3300000x64 ![0, 1] bcast_S3300000x1_S3300000x64_0_1 (broadcastInDim S3300000x1 ![0] bcast_S3300000_S3300000x1_0 n)))) (broadcastInDim S100000x64 ![0, 1] bcast_S1x64_S100000x64_0_1 (broadcastInDim S1x64 ![1] bcast_S64_S1x64_1 b))

/-- max(x, 0), entry by entry. -/
def relu (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- The first layer's matrix product, [N, 128] · [128, 64]. -/
def mm1 (x : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none x w

/-- The second layer's matrix product, [N, 64] · [64, 64]. -/
def mm2 (h : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none h w

/-- The hidden features: relu of the first layer. -/
def hidden (x : (⟨S100000x128, .f32⟩ : BufTy).Contents (Elt F)) (e : (⟨S2x3200000, .i32⟩ : BufTy).Contents (Elt F))
    (W1 : (⟨S128x64, .f32⟩ : BufTy).Contents (Elt F)) (b1 : (⟨S64, .f32⟩ : BufTy).Contents (Elt F)) :
    (⟨S100000x64, .f32⟩ : BufTy).Contents (Elt F) :=
  relu (agg (srcIds e) (dstIds e) (norm (srcIds e) (dstIds e)) (mm1 x W1) b1)

/-- The network: the second layer applied to the hidden features. -/
def gcn (x : (⟨S100000x128, .f32⟩ : BufTy).Contents (Elt F)) (e : (⟨S2x3200000, .i32⟩ : BufTy).Contents (Elt F))
    (W1 : (⟨S128x64, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F)) :
    (⟨S100000x64, .f32⟩ : BufTy).Contents (Elt F) :=
  agg (srcIds e) (dstIds e) (norm (srcIds e) (dstIds e)) (mm2 (hidden x e W1 b1) W2) b2

end Cert.Gcn

end
-- ==== Proof.KStretch.lean ====
/-
  The stretches of host operations of the idealized kernel program, each read as pure functions of what the buffers
  held before it.

  @main alternates stretches of host operations with the two matrix-product regions. A stretch run from ANY contents
  `Vb` of the TensorCore's buffers rewrites the buffers its operations write and leaves every other buffer alone; what it
  writes is the composition of its operations' pure functions, which is one of the specification's named pieces:
    * the first stretch builds the id vectors of the extended edges, the mask of positive degrees, the inverse square
      roots of the degrees and a scalar zero;
    * the second and third build the edge weights from those;
    * the stretch after the first region aggregates the region's output and adds the first bias; the next applies relu;
    * the last stretch aggregates the second region's output and adds the second bias.
-/
import proofs.«158356_j89850715832383_1_alg».proof.Proof.Gen.KernelIdeal.Launch
import proofs.«158356_j89850715832383_1_alg».proof.Proof.Spec
import Idealize.ShloMosaic.Lib.StableHlo.Run
import Idealize.ShloMosaic.PureOps.Ideal

set_option maxRecDepth 16384

noncomputable section

namespace Cert.KernelIdeal.Net

open Idealize.ShloMosaic Idealize.ShloMosaic.TcCoe Idealize.SL.Sem Idealize.ShloMosaic.StableHlo
open Cert.KernelIdeal Cert.KernelIdeal.Gen

section Stretches

variable (Vb : Valuation τ sig (Elt Ideal))

/-! ### The first stretch: the extended edges and the degrees -/

set_option maxHeartbeats 4000000 in
/-- The sources of the extended edges. -/
theorem s0_src : StableHlo.after hostOps0 Vb (Proc.devRef .tc main_v3) = (Cert.Gcn.srcIds (F := Ideal) (Vb (Proc.devRef .tc main_arg1))) := by
  after_results_simp <;> (unfold Cert.Gcn.srcIds; rfl)

set_option maxHeartbeats 4000000 in
/-- The targets of the extended edges. -/
theorem s0_dst : StableHlo.after hostOps0 Vb (Proc.devRef .tc main_v6) = (Cert.Gcn.dstIds (F := Ideal) (Vb (Proc.devRef .tc main_arg1))) := by
  after_results_simp <;> (unfold Cert.Gcn.dstIds; rfl)

set_option maxHeartbeats 4000000 in
/-- Where the degree is positive. -/
theorem s0_pos : StableHlo.after hostOps0 Vb (Proc.devRef .tc main_v12) = Cert.Gcn.positive (F := Ideal) (Cert.Gcn.degree (F := Ideal) (Cert.Gcn.dstIds (F := Ideal) (Vb (Proc.devRef .tc main_arg1)))) := by
  after_results_simp <;> (unfold Cert.Gcn.positive Cert.Gcn.degree Cert.Gcn.dstIds; rfl)

set_option maxHeartbeats 4000000 in
/-- The inverse square root of the degree. -/
theorem s0_rsqrt : StableHlo.after hostOps0 Vb (Proc.devRef .tc main_v13) = Cert.Gcn.rsqrtDeg (F := Ideal) (Cert.Gcn.dstIds (F := Ideal) (Vb (Proc.devRef .tc main_arg1))) := by
  after_results_simp <;> (unfold Cert.Gcn.rsqrtDeg Cert.Gcn.degree Cert.Gcn.dstIds; rfl)

set_option maxHeartbeats 4000000 in
/-- The zero the inverse square root is replaced by where the degree is not positive. -/
theorem s0_zero : StableHlo.after hostOps0 Vb (Proc.devRef .tc main_cst_2) = Cert.Gcn.zeroScalar (F := Ideal) := by
  after_results_simp <;> (unfold Cert.Gcn.zeroScalar; rfl)

set_option maxHeartbeats 4000000 in
theorem s0_keep_main_arg0 : StableHlo.after hostOps0 Vb (Proc.devRef .tc main_arg0) = Vb (Proc.devRef .tc main_arg0) := by
  after_results_simp <;> rfl

set_option maxHeartbeats 4000000 in
theorem s0_keep_main_arg2 : StableHlo.after hostOps0 Vb (Proc.devRef .tc main_arg2) = Vb (Proc.devRef .tc main_arg2) := by
  after_results_simp <;> rfl

set_option maxHeartbeats 4000000 in
theorem s0_keep_main_arg3 : StableHlo.after hostOps0 Vb (Proc.devRef .tc main_arg3) = Vb (Proc.devRef .tc main_arg3) := by
  after_results_simp <;> rfl

set_option maxHeartbeats 4000000 in
theorem s0_keep_main_arg4 : StableHlo.after hostOps0 Vb (Proc.devRef .tc main_arg4) = Vb (Proc.devRef .tc main_arg4) := by
  after_results_simp <;> rfl

set_option maxHeartbeats 4000000 in
theorem s0_keep_main_arg5 : StableHlo.after hostOps0 Vb (Proc.devRef .tc main_arg5) = Vb (Proc.devRef .tc main_arg5) := by
  after_results_simp <;> rfl

/-! ### The second and third stretch: the edge weights -/

set_option maxHeartbeats 4000000 in
/-- The weight of every extended edge, from the ids, the positivity mask, the inverse square roots and the zero. -/
theorem s12_norm : StableHlo.after hostOps0_2 (StableHlo.after hostOps0_1 Vb) (Proc.devRef .tc main_v29)
    = Cert.Gcn.normOf (F := Ideal) (Vb (Proc.devRef .tc main_v3)) (Vb (Proc.devRef .tc main_v6))
        (Cert.Gcn.dinvOf (F := Ideal) (Vb (Proc.devRef .tc main_v12)) (Vb (Proc.devRef .tc main_v13)) (Vb (Proc.devRef .tc main_cst_2))) := by
  after_results_simp <;> (unfold Cert.Gcn.normOf Cert.Gcn.dinvOf Cert.Gcn.wrapIds; rfl)

set_option maxHeartbeats 4000000 in
theorem s12_keep_main_v3 : StableHlo.after hostOps0_2 (StableHlo.after hostOps0_1 Vb) (Proc.devRef .tc main_v3) = Vb (Proc.devRef .tc main_v3) := by
  after_results_simp <;> rfl

set_option maxHeartbeats 4000000 in
theorem s12_keep_main_v6 : StableHlo.after hostOps0_2 (StableHlo.after hostOps0_1 Vb) (Proc.devRef .tc main_v6) = Vb (Proc.devRef .tc main_v6) := by
  after_results_simp <;> rfl

set_option maxHeartbeats 4000000 in
theorem s12_keep_main_arg0 : StableHlo.after hostOps0_2 (StableHlo.after hostOps0_1 Vb) (Proc.devRef .tc main_arg0) = Vb (Proc.devRef .tc main_arg0) := by
  after_results_simp <;> rfl

set_option maxHeartbeats 4000000 in
theorem s12_keep_main_arg2 : StableHlo.after hostOps0_2 (StableHlo.after hostOps0_1 Vb) (Proc.devRef .tc main_arg2) = Vb (Proc.devRef .tc main_arg2) := by
  after_results_simp <;> rfl

set_option maxHeartbeats 4000000 in
theorem s12_keep_main_arg3 : StableHlo.after hostOps0_2 (StableHlo.after hostOps0_1 Vb) (Proc.devRef .tc main_arg3) = Vb (Proc.devRef .tc main_arg3) := by
  after_results_simp <;> rfl

set_option maxHeartbeats 4000000 in
theorem s12_keep_main_arg4 : StableHlo.after hostOps0_2 (StableHlo.after hostOps0_1 Vb) (Proc.devRef .tc main_arg4) = Vb (Proc.devRef .tc main_arg4) := by
  after_results_simp <;> rfl

set_option maxHeartbeats 4000000 in
theorem s12_keep_main_arg5 : StableHlo.after hostOps0_2 (StableHlo.after hostOps0_1 Vb) (Proc.devRef .tc main_arg5) = Vb (Proc.devRef .tc main_arg5) := by
  after_results_simp <;> rfl

/-! ### The stretch after the first region: the first layer's aggregation and bias -/

set_option maxHeartbeats 4000000 in
/-- The first layer before relu, from the first region's output, the ids, the weights and the first bias. -/
theorem s3_agg : StableHlo.after hostOps1 Vb (Proc.devRef .tc main_v46)
    = Cert.Gcn.agg (F := Ideal) (Vb (Proc.devRef .tc main_v3)) (Vb (Proc.devRef .tc main_v6)) (Vb (Proc.devRef .tc main_v29)) (Vb (Proc.devRef .tc main_v30)) (Vb (Proc.devRef .tc main_arg3)) := by
  after_results_simp <;> (unfold Cert.Gcn.agg Cert.Gcn.wrapIds; rfl)

set_option maxHeartbeats 4000000 in
theorem s3_keep_main_v3 : StableHlo.after hostOps1 Vb (Proc.devRef .tc main_v3) = Vb (Proc.devRef .tc main_v3) := by
  after_results_simp <;> rfl

set_option maxHeartbeats 4000000 in
theorem s3_keep_main_v6 : StableHlo.after hostOps1 Vb (Proc.devRef .tc main_v6) = Vb (Proc.devRef .tc main_v6) := by
  after_results_simp <;> rfl

set_option maxHeartbeats 4000000 in
theorem s3_keep_main_v29 : StableHlo.after hostOps1 Vb (Proc.devRef .tc main_v29) = Vb (Proc.devRef .tc main_v29) := by
  after_results_simp <;> rfl

set_option maxHeartbeats 4000000 in
theorem s3_keep_main_arg4 : StableHlo.after hostOps1 Vb (Proc.devRef .tc main_arg4) = Vb (Proc.devRef .tc main_arg4) := by
  after_results_simp <;> rfl

set_option maxHeartbeats 4000000 in
theorem s3_keep_main_arg5 : StableHlo.after hostOps1 Vb (Proc.devRef .tc main_arg5) = Vb (Proc.devRef .tc main_arg5) := by
  after_results_simp <;> rfl

/-! ### The stretch before the second region: relu -/

set_option maxHeartbeats 4000000 in
/-- The hidden features, from the first layer before relu. -/
theorem s4_relu : StableHlo.after hostOps1_1 Vb (Proc.devRef .tc main_v47) = Cert.Gcn.relu (F := Ideal) (Vb (Proc.devRef .tc main_v46)) := by
  after_results_simp <;> (unfold Cert.Gcn.relu; rfl)

set_option maxHeartbeats 4000000 in
theorem s4_keep_main_v3 : StableHlo.after hostOps1_1 Vb (Proc.devRef .tc main_v3) = Vb (Proc.devRef .tc main_v3) := by
  after_results_simp <;> rfl

set_option maxHeartbeats 4000000 in
theorem s4_keep_main_v6 : StableHlo.after hostOps1_1 Vb (Proc.devRef .tc main_v6) = Vb (Proc.devRef .tc main_v6) := by
  after_results_simp <;> rfl

set_option maxHeartbeats 4000000 in
theorem s4_keep_main_v29 : StableHlo.after hostOps1_1 Vb (Proc.devRef .tc main_v29) = Vb (Proc.devRef .tc main_v29) := by
  after_results_simp <;> rfl

set_option maxHeartbeats 4000000 in
theorem s4_keep_main_arg4 : StableHlo.after hostOps1_1 Vb (Proc.devRef .tc main_arg4) = Vb (Proc.devRef .tc main_arg4) := by
  after_results_simp <;> rfl

set_option maxHeartbeats 4000000 in
theorem s4_keep_main_arg5 : StableHlo.after hostOps1_1 Vb (Proc.devRef .tc main_arg5) = Vb (Proc.devRef .tc main_arg5) := by
  after_results_simp <;> rfl

/-! ### The last stretch: the second layer's aggregation and bias -/

set_option maxHeartbeats 4000000 in
/-- The result, from the second region's output, the ids, the weights and the second bias. -/
theorem s5_out : StableHlo.after hostOps2 Vb (Proc.devRef .tc main_v64)
    = Cert.Gcn.agg (F := Ideal) (Vb (Proc.devRef .tc main_v3)) (Vb (Proc.devRef .tc main_v6)) (Vb (Proc.devRef .tc main_v29)) (Vb (Proc.devRef .tc main_v48)) (Vb (Proc.devRef .tc main_arg5)) := by
  after_results_simp <;> (unfold Cert.Gcn.agg Cert.Gcn.wrapIds; rfl)

end Stretches

end Cert.KernelIdeal.Net

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.KBlock0.lean ====
/-
  The first matrix-product region, read as a value: whatever the TensorCore's buffers hold when the region is entered
  (`V`), the region's output array ends holding the product of the [100000, 128] array behind window 0 and the
  [128, 64] array behind window 1.

  The grid has ten points. At point `t` the body reads rows 10000·t … 10000·t + 9999 of the left array (window 0's block),
  the whole right array (window 1's one block), and stores their product, which is written back to the same rows of the
  output (window 2's block). Row `r` of a product depends only on row `r` of the left operand, so the block written at
  `t` is the restriction of the whole product to those rows; the ten blocks tile the output's rows.
-/
import proofs.«158356_j89850715832383_1_alg».proof.Proof.Gen.KernelIdeal.Frame
import proofs.«158356_j89850715832383_1_alg».proof.Proof.Spec
import proofs.«158356_j89850715832383_1_alg».proof.Proof.LibMatmulSum
import Idealize.ShloMosaic.Lib.Pipeline.Value

set_option maxRecDepth 16384

noncomputable section

namespace Cert.KernelIdeal.Block0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at an index of the output block: row `j 0` of the left block times column `j 1` of the right one
    (the two roundings to bf16 on the way in are the identity at the ideal values; the accumulator is the zero splat). -/
theorem pay_apply (x0 : Vec Ideal S10000x128 .f32) (x1 : Vec Ideal S128x64 .f32) (j : S10000x64.Idx) :
    k0_pay1 x0 x1 j = ∑ k : Fin 128, x0 (ix2 (j 0) k) * x1 (ix2 k (j 1)) := by
  unfold k0_pay1
  exact MatmulSum.matmul_zero_apply dot_S10000x128_S128x64_S10000x64_1_0_0_1_n_n rfl rfl rfl rfl rfl rfl none _ _ j

/-- The specification's product at an index of the whole array: the same sum over the shared axis. -/
theorem mm_apply (X : S100000x128.Idx → Elt Ideal .f32) (W : S128x64.Idx → Elt Ideal .f32) (i : S100000x64.Idx) :
    Cert.Gcn.mm1 (F := Ideal) X W i = ∑ k : Fin 128, X (ix2 (i 0) k) * W (ix2 k (i 1)) := by
  unfold Cert.Gcn.mm1
  exact MatmulSum.dotGeneral_apply Cert.ReferenceIdeal.dot_S100000x128_S128x64_S100000x64_1_0_0_1_n_n rfl rfl rfl rfl rfl rfl none _ X W i

/-- The printed index maps, decided over the ten points: the left window moves with the output along the rows, on block
    `t` at point `t`; every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed_eq (c : Dev nD) (t : Fin cfg0.N) :
    (dat0 V c).flushed 2 t
      = ((cfg0.win 2).blk t).view.read (Elt Ideal) (Cert.Gcn.mm1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext y
  show k0_pay1 (iblk0 V c 0 t) (iblk0 V c 1 t) y
      = Cert.Gcn.mm1 (F := Ideal) (V c main_arg0) (V c main_arg2) (((cfg0.win 2).blk t).view.emb y)
  refine (pay_apply _ _ y).trans ((mm_apply _ _ _).trans ?_).symm
  refine Finset.sum_congr rfl fun k _ => ?_
  have h0 : (ix2 ((((cfg0.win 2).blk t).view.emb y) 0) k : S100000x128.Idx) = ((cfg0.win 0).blk t).view.emb (ix2 (y 0) k) := by
    funext a; apply Fin.ext
    match a with
    | ⟨0, _⟩ =>
      show win0_2.index t (0 : Fin 2) * 10000 + 1 * (y 0).val = win0_0.index t (0 : Fin 2) * 10000 + 1 * (y 0).val
      rw [e0, e4]
    | ⟨1, _⟩ =>
      show k.val = win0_0.index t (1 : Fin 2) * 128 + 1 * k.val
      rw [e1]; omega
  have h1 : (ix2 k ((((cfg0.win 2).blk t).view.emb y) 1) : S128x64.Idx) = ((cfg0.win 1).blk t).view.emb (ix2 k (y 1)) := by
    funext a; apply Fin.ext
    match a with
    | ⟨0, _⟩ =>
      show k.val = win0_1.index t (0 : Fin 2) * 128 + 1 * k.val
      rw [e2]; omega
    | ⟨1, _⟩ =>
      show win0_2.index t (1 : Fin 2) * 64 + 1 * (y 1).val = win0_1.index t (1 : Fin 2) * 64 + 1 * (y 1).val
      rw [e3, e5]
  rw [h0, h1]
  rfl

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every block of rows is some point's. -/
theorem idx_onto : ∀ q : Fin 10, ∃ t : Fin cfg0.N, win0_2.index t = ![q.val, 0] :=
  (by decide +kernel : ∀ q : Fin 10, ∃ t : Fin grid0.N, win0_2.index t = ![q.val, 0])

/-- The ten blocks cover the output: row `r` is in the block of point `r / 10000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: the product of the two arrays the region found. -/
theorem final (c : Dev nD) :
    (dat0 V c).arrAt 2 cfg0.N = Cert.Gcn.mm1 (F := Ideal) (V c main_arg0) (V c main_arg2) :=
  (dat0 V c).arrAt_eq_of_cover 2 _ (fun t _ => flushed_eq V c t) cover

end Cert.KernelIdeal.Block0

end
-- ==== Proof.KBlock1.lean ====
/-
  The second matrix-product region, read as a value: whatever the TensorCore's buffers hold when the region is entered
  (`V`), the region's output array ends holding the product of the [100000, 64] array behind window 0 (the hidden
  features) and the [64, 64] array behind window 1.

  The grid has ten points. At point `t` the body reads rows 10000·t … 10000·t + 9999 of the left array (window 0's block),
  the whole right array (window 1's one block), and stores their product, which is written back to the same rows of the
  output (window 2's block). Row `r` of a product depends only on row `r` of the left operand, so the block written at
  `t` is the restriction of the whole product to those rows; the ten blocks tile the output's rows.
-/
import proofs.«158356_j89850715832383_1_alg».proof.Proof.Gen.KernelIdeal.Frame
import proofs.«158356_j89850715832383_1_alg».proof.Proof.Spec
import proofs.«158356_j89850715832383_1_alg».proof.Proof.LibMatmulSum
import Idealize.ShloMosaic.Lib.Pipeline.Value

set_option maxRecDepth 16384

noncomputable section

namespace Cert.KernelIdeal.Block1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at an index of the output block: row `j 0` of the left block times column `j 1` of the right one
    (the shape cast to the same shape and the two roundings to bf16 on the way in are the identity at the ideal values; the
    accumulator is the zero splat). -/
theorem pay_apply (x0 : Vec Ideal S10000x64 .f32) (x1 : Vec Ideal S64x64 .f32) (j : S10000x64.Idx) :
    k1_pay1 x0 x1 j = ∑ k : Fin 64, x0 (ix2 (j 0) k) * x1 (ix2 k (j 1)) := by
  unfold k1_pay1
  simp only [shapeCast_self]
  exact MatmulSum.matmul_zero_apply dot_S10000x64_S64x64_S10000x64_1_0_0_1_n_n rfl rfl rfl rfl rfl rfl none _ _ j

/-- The specification's product at an index of the whole array: the same sum over the shared axis. -/
theorem mm_apply (X : S100000x64.Idx → Elt Ideal .f32) (W : S64x64.Idx → Elt Ideal .f32) (i : S100000x64.Idx) :
    Cert.Gcn.mm2 (F := Ideal) X W i = ∑ k : Fin 64, X (ix2 (i 0) k) * W (ix2 k (i 1)) := by
  unfold Cert.Gcn.mm2
  exact MatmulSum.dotGeneral_apply Cert.ReferenceIdeal.dot_S100000x64_S64x64_S100000x64_1_0_0_1_n_n rfl rfl rfl rfl rfl rfl none _ X W i

/-- The printed index maps, decided over the ten points: the left window moves with the output along the rows, on block
    `t` at point `t`; every other block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays as the region finds them. -/
theorem flushed_eq (c : Dev nD) (t : Fin cfg1.N) :
    (dat1 V c).flushed 2 t
      = ((cfg1.win 2).blk t).view.read (Elt Ideal) (Cert.Gcn.mm2 (F := Ideal) (V c main_v47) (V c main_arg4)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  obtain ⟨e0, e1, e2, e3, e4, e5⟩ := idx_facts t
  funext y
  show k1_pay1 (iblk1 V c 0 t) (iblk1 V c 1 t) y
      = Cert.Gcn.mm2 (F := Ideal) (V c main_v47) (V c main_arg4) (((cfg1.win 2).blk t).view.emb y)
  refine (pay_apply _ _ y).trans ((mm_apply _ _ _).trans ?_).symm
  refine Finset.sum_congr rfl fun k _ => ?_
  have h0 : (ix2 ((((cfg1.win 2).blk t).view.emb y) 0) k : S100000x64.Idx) = ((cfg1.win 0).blk t).view.emb (ix2 (y 0) k) := by
    funext a; apply Fin.ext
    match a with
    | ⟨0, _⟩ =>
      show win1_2.index t (0 : Fin 2) * 10000 + 1 * (y 0).val = win1_0.index t (0 : Fin 2) * 10000 + 1 * (y 0).val
      rw [e0, e4]
    | ⟨1, _⟩ =>
      show k.val = win1_0.index t (1 : Fin 2) * 64 + 1 * k.val
      rw [e1]; omega
  have h1 : (ix2 k ((((cfg1.win 2).blk t).view.emb y) 1) : S64x64.Idx) = ((cfg1.win 1).blk t).view.emb (ix2 k (y 1)) := by
    funext a; apply Fin.ext
    match a with
    | ⟨0, _⟩ =>
      show k.val = win1_1.index t (0 : Fin 2) * 64 + 1 * k.val
      rw [e2]; omega
    | ⟨1, _⟩ =>
      show win1_2.index t (1 : Fin 2) * 64 + 1 * (y 1).val = win1_1.index t (1 : Fin 2) * 64 + 1 * (y 1).val
      rw [e3, e5]
  rw [h0, h1]
  rfl

/-- An index of the output array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v48).slice (win1_2.rect t)).set ↔ _
  rw [View.set_slice_whole, Rect.mem_set_unit]
  exact Iff.rfl

/-- Every block of rows is some point's. -/
theorem idx_onto : ∀ q : Fin 10, ∃ t : Fin cfg1.N, win1_2.index t = ![q.val, 0] :=
  (by decide +kernel : ∀ q : Fin 10, ∃ t : Fin grid1.N, win1_2.index t = ![q.val, 0])

/-- The ten blocks cover the output: row `r` is in the block of point `r / 10000`. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region: the product of the two arrays the region found. -/
theorem final (c : Dev nD) :
    (dat1 V c).arrAt 2 cfg1.N = Cert.Gcn.mm2 (F := Ideal) (V c main_v47) (V c main_arg4) :=
  (dat1 V c).arrAt_eq_of_cover 2 _ (fun t _ => flushed_eq V c t) cover

end Cert.KernelIdeal.Block1

end
-- ==== Proof.KNet.lean ====
/-
  The idealized kernel program's result buffer, as a function of the six arguments.

  The frame module folds the contents of every buffer through @main's eight segments (`W0` at launch … `W8` at the
  return). Read at the buffers that matter:
    * after the first three stretches of host operations (`W3`) the two id vectors of the extended edges and the edge
      weights are the specification's `srcIds`, `dstIds`, `norm` of the edge list, and the arguments are as launched;
    * the first region replaces its output array by the product `x · W1` (the region's value, at the entry contents) and
      keeps every other buffer (`W4`);
    * the next two stretches aggregate that product and add the bias (`W5`), then apply relu (`W6`), keeping the id
      vectors, the weights and the arguments;
    * the second region replaces its output array by the product of the hidden features with `W2` (`W7`);
    * the last stretch aggregates and adds the second bias (`W8`).
  Composed, the result buffer holds the specification's `gcn` of the launch contents of the arguments. The kernel program
  computes the edge weights once and uses them in both layers.
-/
import proofs.«158356_j89850715832383_1_alg».proof.Proof.KStretch
import proofs.«158356_j89850715832383_1_alg».proof.Proof.KBlock0
import proofs.«158356_j89850715832383_1_alg».proof.Proof.KBlock1

set_option maxRecDepth 16384

noncomputable section

namespace Cert.KernelIdeal.Net

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## At the first region's entry -/

/-- The sources of the extended edges. -/
theorem at3_src (c : Dev nD) : W3 m ρ c (Proc.devRef .tc main_v3) = (Cert.Gcn.srcIds (F := Ideal) (m ((c : Thread nD τ).loc main_arg1))) :=
  (s12_keep_main_v3 (StableHlo.after hostOps0 (W0 m ρ c))).trans (s0_src (W0 m ρ c))

/-- The targets of the extended edges. -/
theorem at3_dst (c : Dev nD) : W3 m ρ c (Proc.devRef .tc main_v6) = (Cert.Gcn.dstIds (F := Ideal) (m ((c : Thread nD τ).loc main_arg1))) :=
  (s12_keep_main_v6 (StableHlo.after hostOps0 (W0 m ρ c))).trans (s0_dst (W0 m ρ c))

/-- The weights of the extended edges. -/
theorem at3_norm (c : Dev nD) : W3 m ρ c (Proc.devRef .tc main_v29) = (Cert.Gcn.norm (F := Ideal) (Cert.Gcn.srcIds (F := Ideal) (m ((c : Thread nD τ).loc main_arg1))) (Cert.Gcn.dstIds (F := Ideal) (m ((c : Thread nD τ).loc main_arg1)))) := by
  refine (s12_norm (StableHlo.after hostOps0 (W0 m ρ c))).trans ?_
  rw [s0_src, s0_dst, s0_pos, s0_rsqrt, s0_zero]
  rfl

theorem at3_main_arg0 (c : Dev nD) : W3 m ρ c (Proc.devRef .tc main_arg0) = (m ((c : Thread nD τ).loc main_arg0)) :=
  (s12_keep_main_arg0 (StableHlo.after hostOps0 (W0 m ρ c))).trans (s0_keep_main_arg0 (W0 m ρ c))

theorem at3_main_arg2 (c : Dev nD) : W3 m ρ c (Proc.devRef .tc main_arg2) = (m ((c : Thread nD τ).loc main_arg2)) :=
  (s12_keep_main_arg2 (StableHlo.after hostOps0 (W0 m ρ c))).trans (s0_keep_main_arg2 (W0 m ρ c))

theorem at3_main_arg3 (c : Dev nD) : W3 m ρ c (Proc.devRef .tc main_arg3) = (m ((c : Thread nD τ).loc main_arg3)) :=
  (s12_keep_main_arg3 (StableHlo.after hostOps0 (W0 m ρ c))).trans (s0_keep_main_arg3 (W0 m ρ c))

theorem at3_main_arg4 (c : Dev nD) : W3 m ρ c (Proc.devRef .tc main_arg4) = (m ((c : Thread nD τ).loc main_arg4)) :=
  (s12_keep_main_arg4 (StableHlo.after hostOps0 (W0 m ρ c))).trans (s0_keep_main_arg4 (W0 m ρ c))

theorem at3_main_arg5 (c : Dev nD) : W3 m ρ c (Proc.devRef .tc main_arg5) = (m ((c : Thread nD τ).loc main_arg5)) :=
  (s12_keep_main_arg5 (StableHlo.after hostOps0 (W0 m ρ c))).trans (s0_keep_main_arg5 (W0 m ρ c))

/-! ## After the first region -/

/-- The first region's output: the product of the node features with the first weight matrix. -/
theorem at4_lin (c : Dev nD) : W4 m ρ c (Proc.devRef .tc main_v30) = (Cert.Gcn.mm1 (F := Ideal) (m ((c : Thread nD τ).loc main_arg0)) (m ((c : Thread nD τ).loc main_arg2))) := by
  refine (W4_arr m ρ c 2).trans ((Cert.KernelIdeal.Block0.final (V3 m ρ) c).trans ?_)
  show Cert.Gcn.mm1 (F := Ideal) (W3 m ρ c (Proc.devRef .tc main_arg0)) (W3 m ρ c (Proc.devRef .tc main_arg2)) = _
  rw [at3_main_arg0, at3_main_arg2]

theorem at4_src (c : Dev nD) : W4 m ρ c (Proc.devRef .tc main_v3) = (Cert.Gcn.srcIds (F := Ideal) (m ((c : Thread nD τ).loc main_arg1))) :=
  (W4_of_ne m ρ c main_v3 (by decide)).trans (at3_src m ρ c)
theorem at4_dst (c : Dev nD) : W4 m ρ c (Proc.devRef .tc main_v6) = (Cert.Gcn.dstIds (F := Ideal) (m ((c : Thread nD τ).loc main_arg1))) :=
  (W4_of_ne m ρ c main_v6 (by decide)).trans (at3_dst m ρ c)
theorem at4_norm (c : Dev nD) : W4 m ρ c (Proc.devRef .tc main_v29) = (Cert.Gcn.norm (F := Ideal) (Cert.Gcn.srcIds (F := Ideal) (m ((c : Thread nD τ).loc main_arg1))) (Cert.Gcn.dstIds (F := Ideal) (m ((c : Thread nD τ).loc main_arg1)))) :=
  (W4_of_ne m ρ c main_v29 (by decide)).trans (at3_norm m ρ c)
theorem at4_main_arg3 (c : Dev nD) : W4 m ρ c (Proc.devRef .tc main_arg3) = (m ((c : Thread nD τ).loc main_arg3)) :=
  (W4_of_ne m ρ c main_arg3 (by decide)).trans (at3_main_arg3 m ρ c)
theorem at4_main_arg4 (c : Dev nD) : W4 m ρ c (Proc.devRef .tc main_arg4) = (m ((c : Thread nD τ).loc main_arg4)) :=
  (W4_of_ne m ρ c main_arg4 (by decide)).trans (at3_main_arg4 m ρ c)
theorem at4_main_arg5 (c : Dev nD) : W4 m ρ c (Proc.devRef .tc main_arg5) = (m ((c : Thread nD τ).loc main_arg5)) :=
  (W4_of_ne m ρ c main_arg5 (by decide)).trans (at3_main_arg5 m ρ c)

/-! ## Between the regions -/

/-- The first layer before relu. -/
theorem at5_agg (c : Dev nD) : W5 m ρ c (Proc.devRef .tc main_v46)
    = Cert.Gcn.agg (F := Ideal) (Cert.Gcn.srcIds (F := Ideal) (m ((c : Thread nD τ).loc main_arg1))) (Cert.Gcn.dstIds (F := Ideal) (m ((c : Thread nD τ).loc main_arg1))) (Cert.Gcn.norm (F := Ideal) (Cert.Gcn.srcIds (F := Ideal) (m ((c : Thread nD τ).loc main_arg1))) (Cert.Gcn.dstIds (F := Ideal) (m ((c : Thread nD τ).loc main_arg1)))) (Cert.Gcn.mm1 (F := Ideal) (m ((c : Thread nD τ).loc main_arg0)) (m ((c : Thread nD τ).loc main_arg2))) (m ((c : Thread nD τ).loc main_arg3)) := by
  refine (s3_agg (W4 m ρ c)).trans ?_
  rw [at4_src, at4_dst, at4_norm, at4_lin, at4_main_arg3]

theorem at5_src (c : Dev nD) : W5 m ρ c (Proc.devRef .tc main_v3) = (Cert.Gcn.srcIds (F := Ideal) (m ((c : Thread nD τ).loc main_arg1))) :=
  (s3_keep_main_v3 (W4 m ρ c)).trans (at4_src m ρ c)
theorem at5_dst (c : Dev nD) : W5 m ρ c (Proc.devRef .tc main_v6) = (Cert.Gcn.dstIds (F := Ideal) (m ((c : Thread nD τ).loc main_arg1))) :=
  (s3_keep_main_v6 (W4 m ρ c)).trans (at4_dst m ρ c)
theorem at5_norm (c : Dev nD) : W5 m ρ c (Proc.devRef .tc main_v29) = (Cert.Gcn.norm (F := Ideal) (Cert.Gcn.srcIds (F := Ideal) (m ((c : Thread nD τ).loc main_arg1))) (Cert.Gcn.dstIds (F := Ideal) (m ((c : Thread nD τ).loc main_arg1)))) :=
  (s3_keep_main_v29 (W4 m ρ c)).trans (at4_norm m ρ c)
theorem at5_main_arg4 (c : Dev nD) : W5 m ρ c (Proc.devRef .tc main_arg4) = (m ((c : Thread nD τ).loc main_arg4)) :=
  (s3_keep_main_arg4 (W4 m ρ c)).trans (at4_main_arg4 m ρ c)
theorem at5_main_arg5 (c : Dev nD) : W5 m ρ c (Proc.devRef .tc main_arg5) = (m ((c : Thread nD τ).loc main_arg5)) :=
  (s3_keep_main_arg5 (W4 m ρ c)).trans (at4_main_arg5 m ρ c)

/-- The hidden features. -/
theorem at6_hidden (c : Dev nD) : W6 m ρ c (Proc.devRef .tc main_v47) = (Cert.Gcn.hidden (F := Ideal) (m ((c : Thread nD τ).loc main_arg0)) (m ((c : Thread nD τ).loc main_arg1)) (m ((c : Thread nD τ).loc main_arg2)) (m ((c : Thread nD τ).loc main_arg3))) := by
  refine (s4_relu (W5 m ρ c)).trans ?_
  rw [at5_agg]
  rfl

theorem at6_src (c : Dev nD) : W6 m ρ c (Proc.devRef .tc main_v3) = (Cert.Gcn.srcIds (F := Ideal) (m ((c : Thread nD τ).loc main_arg1))) :=
  (s4_keep_main_v3 (W5 m ρ c)).trans (at5_src m ρ c)
theorem at6_dst (c : Dev nD) : W6 m ρ c (Proc.devRef .tc main_v6) = (Cert.Gcn.dstIds (F := Ideal) (m ((c : Thread nD τ).loc main_arg1))) :=
  (s4_keep_main_v6 (W5 m ρ c)).trans (at5_dst m ρ c)
theorem at6_norm (c : Dev nD) : W6 m ρ c (Proc.devRef .tc main_v29) = (Cert.Gcn.norm (F := Ideal) (Cert.Gcn.srcIds (F := Ideal) (m ((c : Thread nD τ).loc main_arg1))) (Cert.Gcn.dstIds (F := Ideal) (m ((c : Thread nD τ).loc main_arg1)))) :=
  (s4_keep_main_v29 (W5 m ρ c)).trans (at5_norm m ρ c)
theorem at6_main_arg4 (c : Dev nD) : W6 m ρ c (Proc.devRef .tc main_arg4) = (m ((c : Thread nD τ).loc main_arg4)) :=
  (s4_keep_main_arg4 (W5 m ρ c)).trans (at5_main_arg4 m ρ c)
theorem at6_main_arg5 (c : Dev nD) : W6 m ρ c (Proc.devRef .tc main_arg5) = (m ((c : Thread nD τ).loc main_arg5)) :=
  (s4_keep_main_arg5 (W5 m ρ c)).trans (at5_main_arg5 m ρ c)

/-! ## After the second region -/

/-- The second region's output: the product of the hidden features with the second weight matrix. -/
theorem at7_lin (c : Dev nD) : W7 m ρ c (Proc.devRef .tc main_v48) = Cert.Gcn.mm2 (F := Ideal) (Cert.Gcn.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4)) := by
  refine (W7_arr m ρ c 2).trans ((Cert.KernelIdeal.Block1.final (V6 m ρ) c).trans ?_)
  show Cert.Gcn.mm2 (F := Ideal) (W6 m ρ c (Proc.devRef .tc main_v47)) (W6 m ρ c (Proc.devRef .tc main_arg4)) = _
  rw [at6_hidden, at6_main_arg4]

theorem at7_src (c : Dev nD) : W7 m ρ c (Proc.devRef .tc main_v3) = (Cert.Gcn.srcIds (F := Ideal) (m ((c : Thread nD τ).loc main_arg1))) :=
  (W7_of_ne m ρ c main_v3 (by decide)).trans (at6_src m ρ c)
theorem at7_dst (c : Dev nD) : W7 m ρ c (Proc.devRef .tc main_v6) = (Cert.Gcn.dstIds (F := Ideal) (m ((c : Thread nD τ).loc main_arg1))) :=
  (W7_of_ne m ρ c main_v6 (by decide)).trans (at6_dst m ρ c)
theorem at7_norm (c : Dev nD) : W7 m ρ c (Proc.devRef .tc main_v29) = (Cert.Gcn.norm (F := Ideal) (Cert.Gcn.srcIds (F := Ideal) (m ((c : Thread nD τ).loc main_arg1))) (Cert.Gcn.dstIds (F := Ideal) (m ((c : Thread nD τ).loc main_arg1)))) :=
  (W7_of_ne m ρ c main_v29 (by decide)).trans (at6_norm m ρ c)
theorem at7_main_arg5 (c : Dev nD) : W7 m ρ c (Proc.devRef .tc main_arg5) = (m ((c : Thread nD τ).loc main_arg5)) :=
  (W7_of_ne m ρ c main_arg5 (by decide)).trans (at6_main_arg5 m ρ c)

/-! ## At the return -/

/-- The result buffer at the return is the network of the launch contents of the six arguments. -/
theorem result (c : Dev nD) : W8 m ρ c (Proc.devRef .tc main_v64)
    = Cert.Gcn.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (s5_out (W7 m ρ c)).trans ?_
  rw [at7_src, at7_dst, at7_norm, at7_lin, at7_main_arg5]
  rfl

end Cert.KernelIdeal.Net

end
-- ==== Proof.RefIsGcn.lean ====
/-
  The reference program's result term is the graph-convolution network of the specification: the reference spells each
  layer's normalisation again (the same operations on the same edge list), and unfolding the specification's named pieces
  gives back the reference's term, operation by operation.
-/
import proofs.«158356_j89850715832383_1_alg».proof.Proof.RefRun
import proofs.«158356_j89850715832383_1_alg».proof.Proof.Spec

noncomputable section

namespace Cert.Gcn

open Idealize.ShloMosaic Idealize.ShloMosaic.TcCoe Idealize.SL.Sem Cert.ReferenceIdeal Cert.ReferenceIdeal.Gen

variable {F : FTy → Type} [FloatOps F]

set_option maxRecDepth 8192 in
/-- What the reference's run leaves in its result buffer is `gcn` of the launch contents of the six arguments. -/
theorem ref_result (m : (ℓ : Loc nD τ sig) → Buf (Elt F) ℓ) (c : Dev nD) :
    Cert.ReferenceIdeal.RunP.res_main_v94 m c
      = gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v94 gcn hidden agg norm normOf dinv dinvOf positive rsqrtDeg zeroScalar degree wrapIds srcIds dstIds relu mm1 mm2
  rfl

end Cert.Gcn

end
-- ==== Proof.lean ====
/-
  Two-layer graph convolution: the Pallas program against its jnp reference, equal over the extended reals.

  Both programs compute, from node features x : f32[100000, 128], an edge list e : i32[2, 3200000], weights W1, W2 and
  biases b1, b2,

      gcn x e W1 b1 W2 b2 = agg (relu (agg (x · W1) b1) · W2) b2,

  where `agg h b` gathers the rows of `h` at the sources of the edges (self-loops added), scales each by
  deg^(-1/2)(source) · deg^(-1/2)(target), scatter-adds them at the targets and adds the bias (module `Spec`). The two
  programs write every one of those host operations the same way; they differ in the two matrix products only: the
  reference calls the host's dot_general on the whole arrays, the kernel program runs a pipelined region over ten blocks
  of 10000 rows whose body rounds both operands to bf16 and multiplies them on the matrix unit into a zero accumulator.
  At the ideal values a change of float format is the identity and both products are the plain sum over the shared axis,
  and a row of a product needs only that row of the left operand, so each region leaves the whole product in its output
  array (modules `KBlock0`, `KBlock1` over `LibMatmulSum`). The kernel program's result buffer is then read through the
  segments of its @main (`KRun`, `KNet`), the reference's through its list of operations (`RefRun`, `RefIsGcn`), and both
  are `gcn` of the arguments. No law of arithmetic beyond that is used, so the finiteness of the inputs is never opened.
  The ideal pass rewrote nothing, so `preserves` is `True`.
-/
import proofs.«158356_j89850715832383_1_alg».proof.Defs
import proofs.«158356_j89850715832383_1_alg».proof.Proof.Gen.Kernel
import proofs.«158356_j89850715832383_1_alg».proof.Proof.Gen.Kernel.Frame
import proofs.«158356_j89850715832383_1_alg».proof.Proof.Gen.KernelIdeal
import proofs.«158356_j89850715832383_1_alg».proof.Proof.Gen.KernelIdeal.Frame
import proofs.«158356_j89850715832383_1_alg».proof.Proof.Gen.ReferenceIdeal
import proofs.«158356_j89850715832383_1_alg».proof.Proof.Gen.Pre_finite_inputs
import proofs.«158356_j89850715832383_1_alg».proof.Proof.KRun
import proofs.«158356_j89850715832383_1_alg».proof.Proof.KNet
import proofs.«158356_j89850715832383_1_alg».proof.Proof.RefIsGcn
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- From memories that agree on the six arguments both programs end with their result buffer at `gcn` of the
    arguments, and the arguments unchanged. -/
theorem algebraic : Cert.algebraic_KernelIdeal_ReferenceIdeal := by
  intro m ρ m' ρ' _ hagree
  refine ⟨fun c => Cert.Gcn.gcn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Net.result m ρ c), (h c).2⟩)
      (Cert.KernelIdeal.Gen.run_value (F := Ideal) m ρ)
  · refine (θ_run Cert.ReferenceIdeal.defs _ _).mono (fun r h c => ⟨(h c).1.trans ?_, (h c).2⟩)
      (Cert.ReferenceIdeal.RunP.run (F := Ideal) m' ρ')
    rw [Cert.Gcn.ref_result, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
